-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1024x64 : Shape := ⟨2, ![1024, 64]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S4096 .f32) (main_arg1 : FVec F S1024x64 .f32) (main_arg2 : FVec F S1024x64 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Kernel.lean ====
abbrev S4096 : Shape := ⟨1, ![4096]⟩
abbrev S1024x64 : Shape := ⟨2, ![1024, 64]⟩
abbrev S4096x1024 : Shape := ⟨2, ![4096, 1024]⟩
abbrev S256 : Shape := ⟨1, ![256]⟩
abbrev S256x64 : Shape := ⟨2, ![256, 64]⟩
abbrev S256x256 : Shape := ⟨2, ![256, 256]⟩
abbrev S256x1x1 : Shape := ⟨3, ![256, 1, 1]⟩
abbrev S1x256x64 : Shape := ⟨3, ![1, 256, 64]⟩
abbrev S256x256x64 : Shape := ⟨3, ![256, 256, 64]⟩

abbrev nBuf : Space → Nat
  | .hbm => 4
  | .vmem => 8
  | .smem => 0
  | _ => 0

abbrev bufTy : (tb : Table) → Fin (tcTables nBuf tb) → BufTy
  | .hbm, ⟨0, _⟩ => ⟨S4096, .f32⟩
  | .hbm, ⟨1, _⟩ => ⟨S1024x64, .f32⟩
  | .hbm, ⟨2, _⟩ => ⟨S1024x64, .f32⟩
  | .hbm, ⟨3, _⟩ => ⟨S4096x1024, .f32⟩
  | .local _ .vmem, ⟨0, _⟩ => ⟨S256, .f32⟩
  | .local _ .vmem, ⟨1, _⟩ => ⟨S256, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x256, .f32⟩
  | .local _ .vmem, ⟨7, _⟩ => ⟨S256x256, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256_S256_0 : ∀ a, (![0] : Fin 1 → Nat) a + S256.size a ≤ S256.size a
  h_S256 : 0 < S256.numel
  inb_S256x64_S256x64_0_0 : ∀ a, (![0, 0] : Fin 2 → Nat) a + S256x64.size a ≤ S256x64.size a
  h_S256x64 : 0 < S256x64.numel
  shapeCasts_S256_S256x1x1 : S256.ShapeCasts S256x1x1
  shapeCasts_S256x64_S1x256x64 : S256x64.ShapeCasts S1x256x64
  broadcasts_S256x1x1_S256x256x64 : S256x1x1.Broadcasts S256x256x64
  broadcasts_S1x256x64_S256x256x64 : S1x256x64.Broadcasts S256x256x64
  reduces_S256x256x64_S256x256 : S256x256x64.Reduces [2] S256x256
  inb_S256x256_S256x256_0_0 : ∀ a, (![0, 0] : Fin 2 → Nat) a + S256x256.size a ≤ S256x256.size a
  h_S256x256 : 0 < S256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S4096.size a
  hwx0_0 : ∀ i : grid0.Coords, EltTy.bits .f32 = 32 ∨ (Rect.block (s := S4096) S256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S1024x64.size a
  hwx0_1 : ∀ i : grid0.Coords, EltTy.bits .f32 = 32 ∨ (Rect.block (s := S1024x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S1024x64.size a
  hwx0_2 : ∀ i : grid0.Coords, EltTy.bits .f32 = 32 ∨ (Rect.block (s := S1024x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x1024.size a
  hwx0_3 : ∀ i : grid0.Coords, EltTy.bits .f32 = 32 ∨ (Rect.block (s := S4096x1024) S256x256.size (cc0_transform_3 i) (hinb0_3 i)).WholeWords (EltTy.packing .f32)

variable [Facts₀]

abbrev win0_0 : Pipeline.Window sig grid0 :=
  Pipeline.Window.ofSpec (Memref.whole main_arg0) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096 : Shape := ⟨1, ![4096]⟩
abbrev S1024x64 : Shape := ⟨2, ![1024, 64]⟩
abbrev S4096x1x1 : Shape := ⟨3, ![4096, 1, 1]⟩
abbrev S1x1024x64 : Shape := ⟨3, ![1, 1024, 64]⟩
abbrev S4096x1024x64 : Shape := ⟨3, ![4096, 1024, 64]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096, .f32⟩
  | .hbm, ⟨1, _⟩ => ⟨S1024x64, .f32⟩
  | .hbm, ⟨2, _⟩ => ⟨S1024x64, .f32⟩
  | .hbm, ⟨3, _⟩ => ⟨S4096x1x1, .f32⟩
  | .hbm, ⟨4, _⟩ => ⟨S1x1024x64, .f32⟩
  | .hbm, ⟨5, _⟩ => ⟨S4096x1024x64, .f32⟩
  | .hbm, ⟨6, _⟩ => ⟨S4096x1024x64, .f32⟩
  | .hbm, ⟨7, _⟩ => ⟨S4096x1024x64, .f32⟩
  | .hbm, ⟨8, _⟩ => ⟨S1x1024x64, .f32⟩
  | .hbm, ⟨9, _⟩ => ⟨S4096x1024x64, .f32⟩
  | .hbm, ⟨10, _⟩ => ⟨S4096x1024x64, .f32⟩
  | .hbm, ⟨11, _⟩ => ⟨S_, .f32⟩
  | .hbm, ⟨12, _⟩ => ⟨S4096x1024, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4096_S4096x1x1_0 : S4096.BroadcastsInDim S4096x1x1 (![0] : Fin 1 → Fin S4096x1x1.rank)
  bcast_S1024x64_S1x1024x64_1_2 : S1024x64.BroadcastsInDim S1x1024x64 (![1, 2] : Fin 2 → Fin S1x1024x64.rank)
  bcast_S4096x1x1_S4096x1024x64_0_1_2 : S4096x1x1.BroadcastsInDim S4096x1024x64 (![0, 1, 2] : Fin 3 → Fin S4096x1024x64.rank)
  bcast_S1x1024x64_S4096x1024x64_0_1_2 : S1x1024x64.BroadcastsInDim S4096x1024x64 (![0, 1, 2] : Fin 3 → Fin S4096x1024x64.rank)
  reducesTo_S4096x1024x64_S4096x1024_d2 : S4096x1024x64.ReducesTo [2] S4096x1024
  h_S_ : 0 < S_.numel

variable [Facts₀]

class Facts : Prop extends Facts₀ where

variable [Facts]
-- ==== Proof.CauchySum.lean ====
/-
  The Cauchy sum.  For a vector of evaluation points `z` (4096 of them) and, for each of 1024 channels, 64 poles `p` and
  64 residues `r`, the partial-fraction sum is

      C(z, p, r)[s, d] = Σ_{k < 64}  r[d, k] / (z[s] - p[d, k]),

  read on the extended reals: the difference and the sum are the extended reals' own, and the quotient is the ideal
  division `Ideal.div` (total: it has a stated value at a zero or infinite divisor as well).  This file states that
  function once, over literal extents and by coordinates, with no program in sight; both programs are then shown to
  compute it.  Nothing here needs the inputs to be finite: the two programs apply the same operations to the same
  entries in the same order of nesting, so no algebraic law of the extended reals is used beyond `0 + x = x`.
-/
import Idealize.ShloMosaic.PureOps.Ideal
import Idealize.ShloMosaic.Lib.ValueIdx

noncomputable section

open scoped BigOperators

namespace Cert.CauchySum

open Idealize.ShloMosaic Idealize.ShloMosaic.ValueIdx

/-- One entry of the Cauchy sum, by coordinates: evaluation point `a`, channel `b`, over arrays of any extents
    `n` (points) and `c` (channels) with 64 poles per channel.  The same expression describes a block (n = c = 256)
    and the whole array (n = 4096, c = 1024). -/
def entry {n c : Nat} (z : (⟨1, ![n]⟩ : Shape).Idx → EReal) (p r : (⟨2, ![c, 64]⟩ : Shape).Idx → EReal)
    (a : Fin n) (b : Fin c) : EReal :=
  ∑ k : Fin 64, Ideal.div (r (ix2 b k)) (z (ix1 a) - p (ix2 b k))

/-- The whole result array `[4096, 1024]`: entry `(s, d)` is the Cauchy sum of point `s` against channel `d`. -/
def cauchy (z : (⟨1, ![4096]⟩ : Shape).Idx → EReal) (p r : (⟨2, ![1024, 64]⟩ : Shape).Idx → EReal) :
    (⟨2, ![4096, 1024]⟩ : Shape).Idx → EReal :=
  fun i => entry z p r (i 0) (i 1)

/-- The result at an index written by coordinates. -/
theorem cauchy_ix2 (z : (⟨1, ![4096]⟩ : Shape).Idx → EReal) (p r : (⟨2, ![1024, 64]⟩ : Shape).Idx → EReal)
    (a : Fin 4096) (b : Fin 1024) : cauchy z p r (ix2 a b) = entry z p r a b := rfl

end Cert.CauchySum

end
-- ==== Proof.RefIsCauchy.lean ====
/-
  The reference program computes the Cauchy sum.  Its ten host operations broadcast `z` to [4096, 1, 1] and then to
  [4096, 1024, 64], broadcast the poles and the residues to [1, 1024, 64] and then to [4096, 1024, 64], subtract, divide
  and sum over the last axis from the initial value zero.  Read at an index (s, d), with the summation index k: every
  broadcast reads its operand at the coordinates it keeps, so the summand is r[d, k] / (z[s] - p[d, k]), and the initial
  value contributes `0 +`.
-/
import proofs.«129120_j37374805409880_1_alg».proof.Proof.Gen.ReferenceIdeal.Read
import proofs.«129120_j37374805409880_1_alg».proof.Proof.CauchySum
import Idealize.ShloMosaic.Lib.ValueIdx
import Idealize.ShloMosaic.PureOps.Ideal.Laws

noncomputable section

open scoped BigOperators

namespace Cert.ReferenceIdeal.RefCauchy

open Cert.ReferenceIdeal Cert.ReferenceIdeal.Gen Cert.ReferenceIdeal.Read Idealize.ShloMosaic Idealize.ShloMosaic.ValueIdx
open Cert.CauchySum

/-- The reference's last stage — the sum over the pole axis of the broadcast quotient — is the Cauchy sum of its three
    arguments, index by index. -/
theorem stage_eq_cauchy (z : (⟨S4096, .f32⟩ : BufTy).Contents (Elt Ideal))
    (p r : (⟨S1024x64, .f32⟩ : BufTy).Contents (Elt Ideal)) :
    val_main_v8 (F := Ideal) z p r = cauchy z p r := by
  funext i
  obtain ⟨a, b, rfl⟩ : ∃ (a : Fin 4096) (b : Fin 1024), i = ix2 a b := ⟨i 0, i 1, eq_ix2 i⟩
  rw [val_main_v8_apply, cauchy_ix2]
  unfold entry
  rw [val_main_cst_apply, Ideal.ofBits_def, Ideal.ofBits_zero_f32, zero_add]
  refine Finset.sum_congr rfl fun k _ => ?_
  -- the coordinates each broadcast keeps
  have er : idx_main_v5 (idx_main_v6 (idx_main_v8 (ix2 a b) k)) = ix2 b k :=
    funext fun d => Fin.ext (by match d with | ⟨0, _⟩ => rfl | ⟨1, _⟩ => rfl)
  have ep : idx_main_v1 (idx_main_v3 (idx_main_v8 (ix2 a b) k)) = ix2 b k :=
    funext fun d => Fin.ext (by match d with | ⟨0, _⟩ => rfl | ⟨1, _⟩ => rfl)
  have ez : idx_main_v0 (idx_main_v2 (idx_main_v8 (ix2 a b) k)) = ix1 a :=
    funext fun d => Fin.ext (by match d with | ⟨0, _⟩ => rfl)
  rw [val_main_v7_apply, val_main_v6_apply, val_main_v5_apply, val_main_v4_apply, val_main_v2_apply, val_main_v0_apply,
    val_main_v3_apply, val_main_v1_apply, er, ep, ez]
  rfl

end Cert.ReferenceIdeal.RefCauchy

end
-- ==== Proof.BodyAtIndex.lean ====
/-
  The kernel body computes a block of the Cauchy sum.  At one grid point the body holds 256 evaluation points `x0`,
  and the poles `x1` and residues `x2` of 256 channels.  It re-lays `x0` as a column [256, 1, 1] and the two tables
  as [1, 256, 64], broadcasts all three to [256, 256, 64], subtracts, divides and sums over the last axis.  Read at the
  entry (a, b) of the [256, 256] result, with summation index k: the broadcast column reads `x0` at a, the broadcast
  tables read `x1`, `x2` at (b, k), so the entry is Σ_k x2[b, k] / (x0[a] - x1[b, k]) — the Cauchy sum's entry over
  the block's own arrays.
-/
import proofs.«129120_j37374805409880_1_alg».proof.Proof.Gen.KernelIdeal.Skeleton
import proofs.«129120_j37374805409880_1_alg».proof.Proof.CauchySum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyCauchy

open Cert.KernelIdeal Cert.KernelIdeal.Gen Idealize.ShloMosaic Idealize.ShloMosaic.ValueIdx
open Cert.CauchySum

/-- The column of evaluation points, broadcast over channels and poles, reads point `a` at every (a, b, k). -/
theorem points_bcast (x0 : FVec Ideal S256 .f32) (a b : Fin 256) (k : Fin 64) :
    broadcastTo S256x256x64 (shapeCast S256x1x1 x0 shapeCasts_S256_S256x1x1) broadcasts_S256x1x1_S256x256x64 (ix3 a b k)
      = x0 (ix1 a) := by
  refine (broadcastTo_apply _ broadcasts_S256x1x1_S256x256x64 (ix3 a b k)
    (ix3 a (⟨0, Nat.one_pos⟩ : Fin 1) (⟨0, Nat.one_pos⟩ : Fin 1)) (fun d => match d with
      | ⟨0, _⟩ => by show a.val = if (256 : Nat) = 1 then 0 else a.val; rw [if_neg (by decide)]
      | ⟨1, _⟩ => by show 0 = if (1 : Nat) = 1 then 0 else b.val; rw [if_pos rfl]
      | ⟨2, _⟩ => by show 0 = if (1 : Nat) = 1 then 0 else k.val; rw [if_pos rfl])).trans ?_
  exact shapeCast_apply x0 shapeCasts_S256_S256x1x1 _ (ix1 a) (by
    rw [Shape.rowMajor_val_one, Shape.rowMajor_val_three]
    show a.val = (a.val * 1 + 0) * 1 + 0
    omega)

/-- A [256, 64] table, broadcast over evaluation points, reads its entry (b, k) at every (a, b, k). -/
theorem table_bcast (x : FVec Ideal S256x64 .f32) (a b : Fin 256) (k : Fin 64) :
    broadcastTo S256x256x64 (shapeCast S1x256x64 x shapeCasts_S256x64_S1x256x64) broadcasts_S1x256x64_S256x256x64 (ix3 a b k)
      = x (ix2 b k) := by
  refine (broadcastTo_apply _ broadcasts_S1x256x64_S256x256x64 (ix3 a b k)
    (ix3 (⟨0, Nat.one_pos⟩ : Fin 1) b k) (fun d => match d with
      | ⟨0, _⟩ => by show 0 = if (1 : Nat) = 1 then 0 else a.val; rw [if_pos rfl]
      | ⟨1, _⟩ => by show b.val = if (256 : Nat) = 1 then 0 else b.val; rw [if_neg (by decide)]
      | ⟨2, _⟩ => by show k.val = if (64 : Nat) = 1 then 0 else k.val; rw [if_neg (by decide)])).trans ?_
  exact shapeCast_ab_1ab_apply x shapeCasts_S256x64_S1x256x64 _ b k

/-- The sum over the pole axis of a [256, 256, 64] value, read at (a, b), is the sum over k of its entries (a, b, k). -/
theorem pole_sum (src : FVec Ideal S256x256x64 .f32) (hφ : FKind.Formats .f32)
    (hacc : (0x00000000#32 : BitVec 32) = FKind.add.neutral .f32 hφ) (a b : Fin 256) :
    multiReduction .add [2] S256x256 src 0x00000000#32 reduces_S256x256x64_S256x256 hφ hacc (ix2 a b)
      = ∑ k : Fin 64, src (ix3 a b k) :=
  (Ideal.multiReduction_add_single src 0x00000000#32 reduces_S256x256x64_S256x256 hφ hacc (ix2 a b)).trans
    (Finset.sum_congr rfl fun k _ => congrArg src (funext fun d => Fin.ext (by
      match d with
      | ⟨0, _⟩ => rfl
      | ⟨1, _⟩ => rfl
      | ⟨2, _⟩ => rfl)))

/-- THE BODY'S RESULT at (a, b) is the Cauchy sum's entry over the block's points, poles and residues. -/
theorem body_entry (x0 : FVec Ideal S256 .f32) (x1 x2 : FVec Ideal S256x64 .f32) (a b : Fin 256) :
    k0_pay1 (F := Ideal) x0 x1 x2 (ix2 a b) = entry x0 x1 x2 a b := by
  unfold k0_pay1 entry
  refine (pole_sum _ _ _ a b).trans ?_
  refine Finset.sum_congr rfl fun k _ => ?_
  rw [divf_apply, subf_apply, table_bcast x2 a b k, points_bcast x0 a b k, table_bcast x1 a b k]

end Cert.KernelIdeal.BodyCauchy

end
-- ==== Proof.KernelIsCauchy.lean ====
/-
  From blocks to the whole array.  The grid has 4 × 16 points; point (d, s) stages block s of the evaluation points
  (256 of them), block d of the poles and of the residues (256 channels, all 64 poles), and writes back block (s, d) of
  the [4096, 1024] result.  The body leaves in that block the Cauchy sum of the staged blocks (the body read at an
  index), and an entry of a staged block is the entry of the whole array at the block's offset: row s·256 + a of the
  points, row d·256 + b of the tables.  So what point (d, s) writes back is block (s, d) of the Cauchy sum of the WHOLE
  argument arrays.  The 64 blocks tile the result (entry (i, j) lies in block (i / 256, j / 256)), hence the result
  array after the run is the Cauchy sum of the arguments.
-/
import proofs.«129120_j37374805409880_1_alg».proof.Proof.Gen.KernelIdeal.Value
import proofs.«129120_j37374805409880_1_alg».proof.Proof.BodyAtIndex
import proofs.«129120_j37374805409880_1_alg».proof.Proof.CauchySum
import Idealize.ShloMosaic.Lib.ValueIdx
import Idealize.ShloMosaic.Lib.Pipeline.Value

noncomputable section

open scoped BigOperators

namespace Cert.KernelIdeal.ArrayCauchy

open Cert.KernelIdeal Cert.KernelIdeal.Gen Idealize.ShloMosaic Idealize.ShloMosaic.TcCoe Idealize.SL.Sem
open Idealize.ShloMosaic.ValueIdx
open Idealize.ShloMosaic.Pipeline (Dat)
open Cert.CauchySum

variable (m : (ℓ : Loc nD τ sig) → Buf (Elt Ideal) ℓ) (ρ : Dev nD → PrngReg)

theorem origin1 : (![0] : Fin 1 → Nat) = fun _ => 0 := funext fun a => by fin_cases a <;> rfl
theorem origin2 : (![0, 0] : Fin 2 → Nat) = fun _ => 0 := funext fun a => by fin_cases a <;> rfl

/-- The body's result at any index of the [256, 256] block, by the index's coordinates. -/
theorem block_entry (x0 : FVec Ideal S256 .f32) (x1 x2 : FVec Ideal S256x64 .f32) (j : S256x256.Idx) :
    k0_pay1 (F := Ideal) x0 x1 x2 j = entry x0 x1 x2 (j 0) (j 1) :=
  (congrArg (k0_pay1 (F := Ideal) x0 x1 x2) (eq_ix2 j)).trans (BodyCauchy.body_entry x0 x1 x2 (j 0) (j 1))

/-- The block indices at a grid point, decided over the 64 points: the points' block moves with the result's row block,
    the tables' block with the result's column block (and spans all 64 poles), and the result's block indices range
    over 16 × 4. -/
theorem block_indices : ∀ t : Fin cfg0.N,
    win0_0.index t (0 : Fin 1) = win0_3.index t (0 : Fin 2)
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 15 ∧ win0_3.index t (1 : Fin 2) ≤ 3 :=
  (by decide +kernel : ∀ t : Fin grid0.N, _)

/-- Every one of the 16 × 4 result blocks is some grid point's. -/
theorem block_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- WHAT POINT `t` WRITES BACK is block `t` of the Cauchy sum of the whole argument arrays. -/
theorem flushed_eq (c : Dev nD) (t : Fin cfg0.N) :
    (dats m 0 c).flushed 3 t
      = ((cfg0.win 3).blk t).view.read (Elt Ideal) (cauchy (V m c main_arg0) (V m c main_arg1) (V m c main_arg2)) := by
  rw [Value.flushed3]
  unfold out0_3
  rw [View.canon_unit_zero origin2]
  simp only [View.ld_unit_zero (S := S256) origin1, View.ld_unit_zero (S := S256x64) origin2]
  obtain ⟨e0, e1, e2, e3, e4, e5, e6⟩ := block_indices t
  funext j
  show k0_pay1 (F := Ideal) (iblk m c 0 t) (iblk m c 1 t) (iblk m c 2 t) j
      = entry (V m c main_arg0) (V m c main_arg1) (V m c main_arg2)
          ((((cfg0.win 3).blk t).view.emb j) 0) ((((cfg0.win 3).blk t).view.emb j) 1)
  refine (block_entry (iblk m c 0 t) (iblk m c 1 t) (iblk m c 2 t) j).trans ?_
  unfold entry
  refine Finset.sum_congr rfl fun k _ => ?_
  have hz : iblk m c 0 t (ix1 (j 0)) = V m c main_arg0 (ix1 ((((cfg0.win 3).blk t).view.emb j) 0)) := by
    show V m c main_arg0 (((cfg0.win 0).blk t).view.emb (ix1 (j 0))) = _
    refine congrArg _ (funext fun a => Fin.ext ?_)
    match a with
    | ⟨0, _⟩ =>
      show win0_0.index t (0 : Fin 1) * 256 + 1 * (j 0).val = win0_3.index t (0 : Fin 2) * 256 + 1 * (j 0).val
      omega
  have hp : iblk m c 1 t (ix2 (j 1) k) = V m c main_arg1 (ix2 ((((cfg0.win 3).blk t).view.emb j) 1) k) := by
    show V m c main_arg1 (((cfg0.win 1).blk t).view.emb (ix2 (j 1) k)) = _
    refine congrArg _ (funext fun a => Fin.ext ?_)
    match a with
    | ⟨0, _⟩ =>
      show win0_1.index t (0 : Fin 2) * 256 + 1 * (j 1).val = win0_3.index t (1 : Fin 2) * 256 + 1 * (j 1).val
      omega
    | ⟨1, _⟩ =>
      show win0_1.index t (1 : Fin 2) * 64 + 1 * k.val = k.val
      omega
  have hr : iblk m c 2 t (ix2 (j 1) k) = V m c main_arg2 (ix2 ((((cfg0.win 3).blk t).view.emb j) 1) k) := by
    show V m c main_arg2 (((cfg0.win 2).blk t).view.emb (ix2 (j 1) k)) = _
    refine congrArg _ (funext fun a => Fin.ext ?_)
    match a with
    | ⟨0, _⟩ =>
      show win0_2.index t (0 : Fin 2) * 256 + 1 * (j 1).val = win0_3.index t (1 : Fin 2) * 256 + 1 * (j 1).val
      omega
    | ⟨1, _⟩ =>
      show win0_2.index t (1 : Fin 2) * 64 + 1 * k.val = k.val
      omega
  rw [hz, hp, hr]

/-- An index of the result is in point `t`'s block iff each coordinate is in the block's range on its axis. -/
theorem mem_block (t : Fin cfg0.N) (i : S4096x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v0).slice (win0_3.rect t)).set ↔ _
  rw [View.set_slice_whole, Rect.mem_set_unit]
  exact Iff.rfl

/-- The blocks tile the result: entry (i, j) lies in the block of the point whose block indices are (i / 256, j / 256). -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := block_onto ⟨(i 0).val / 256, by omega⟩ ⟨(i 1).val / 256, by omega⟩
  have q0 : win0_3.index t (0 : Fin 2) = (i 0).val / 256 := congrFun ht 0
  have q1 : win0_3.index t (1 : Fin 2) = (i 1).val / 256 := congrFun ht 1
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 256 ≤ (i 1).val ∧ (i 1).val < win0_3.index t (1 : Fin 2) * 256 + 256
    omega

/-- THE RESULT ARRAY after the run is the Cauchy sum of the argument arrays as launched. -/
theorem final (c : Dev nD) :
    (dats m 0 c).arrAt 3 cfg0.N
      = cauchy (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result array at the Cauchy sum of the arguments, and
    the arguments unchanged. -/
theorem run : θ_run defs (onTc (τ := τ) (main (F := Ideal))) ⟨m, fun _ => 0, ρ⟩ fun r => ∀ c : Dev nD,
      r.2.mem ((c : Thread nD τ).loc main_v0)
        = cauchy (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayCauchy

end
-- ==== Proof.lean ====
/-
  The certificate of the Cauchy-sum kernel against its reference.

  Both programs compute, for evaluation points `z` (4096), and per channel (1024) its 64 poles `p` and residues `r`,

      out[s, d] = Σ_{k < 64}  r[d, k] / (z[s] - p[d, k]).

  The reference does it in one piece on the host (broadcast, subtract, divide, sum over the pole axis from zero); the
  kernel does it block by block over a 4 × 16 grid, each grid point computing a 256 × 256 block of the result from 256
  points and the tables of 256 channels.  At the ideal instance both are the same expression over the extended reals —
  the same difference, the same ideal division, the same sum over k — so the two results agree entry by entry with no
  appeal to finiteness: a tiling changes which entries are computed together, not what an entry is.

  The pieces: `Proof/CauchySum.lean` states the function; `Proof/RefIsCauchy.lean` reads the reference's run as it;
  `Proof/BodyAtIndex.lean` reads the kernel body at an entry of a block; `Proof/KernelIsCauchy.lean` passes from the
  blocks to the whole result array.  Here the five claims are assembled: the two kernel programs' frames are the
  generated ones, the reference's frame is its run with the result forgotten, the idealization rewrote nothing, and the
  algebraic claim sets the two runs side by side at the common function of arguments that agree.
-/
import proofs.«129120_j37374805409880_1_alg».proof.Defs
import proofs.«129120_j37374805409880_1_alg».proof.Proof.Gen.Kernel
import proofs.«129120_j37374805409880_1_alg».proof.Proof.Gen.Kernel.Skeleton
import proofs.«129120_j37374805409880_1_alg».proof.Proof.Gen.Kernel.Launch
import proofs.«129120_j37374805409880_1_alg».proof.Proof.Gen.Kernel.Points
import proofs.«129120_j37374805409880_1_alg».proof.Proof.Gen.Kernel.Frame
import proofs.«129120_j37374805409880_1_alg».proof.Proof.Gen.KernelIdeal
import proofs.«129120_j37374805409880_1_alg».proof.Proof.Gen.KernelIdeal.Skeleton
import proofs.«129120_j37374805409880_1_alg».proof.Proof.Gen.KernelIdeal.Launch
import proofs.«129120_j37374805409880_1_alg».proof.Proof.Gen.KernelIdeal.Points
import proofs.«129120_j37374805409880_1_alg».proof.Proof.Gen.KernelIdeal.Frame
import proofs.«129120_j37374805409880_1_alg».proof.Proof.Gen.ReferenceIdeal
import proofs.«129120_j37374805409880_1_alg».proof.Proof.Gen.Pre_finite_inputs
import proofs.«129120_j37374805409880_1_alg».proof.Proof.Gen.KernelIdeal.Value
import proofs.«129120_j37374805409880_1_alg».proof.Proof.Gen.ReferenceIdeal.Run
import proofs.«129120_j37374805409880_1_alg».proof.Proof.Gen.ReferenceIdeal.Read
import proofs.«129120_j37374805409880_1_alg».proof.Proof.CauchySum
import proofs.«129120_j37374805409880_1_alg».proof.Proof.RefIsCauchy
import proofs.«129120_j37374805409880_1_alg».proof.Proof.KernelIsCauchy
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference's run, with what it says about the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories that agree on the three arguments both programs end with the Cauchy sum of those arguments in their
    result arrays: the kernel by its blocks tiling the result, the reference by its run read at an index. -/
theorem algebraic : Cert.algebraic_KernelIdeal_ReferenceIdeal := by
  intro m ρ m' ρ' _ hagree
  refine ⟨_, Cert.KernelIdeal.ArrayCauchy.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefCauchy.stage_eq_cauchy,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
